-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x32768 : Shape := ⟨2, ![32, 32768]⟩
abbrev S_ : Shape := ⟨0, ![]⟩

class Facts : Prop where
  bcast_S_S32x32768 : S_.BroadcastsInDim S32x32768 (![] : Fin 0 → Fin S32x32768.rank)
  reducesTo_S32x32768_S_d0_1 : S32x32768.ReducesTo [0, 1] S_
  h_S_ : 0 < S_.numel

variable [Facts]

def fn {F : FTy → Type} [FloatOps F] (main_arg0 : FVec F S32x32768 .f32) : IVec S_ 1 :=
  let main_v0 : FVec F S32x32768 .f32 := Host.absf main_arg0
  let main_cst : FVec F S_ .f32 := constant S_ .f32 0x7F800000#32
  let main_v1 : FVec F S32x32768 .f32 := broadcastInDim S32x32768 ![] bcast_S_S32x32768 main_cst
  let main_v2 : IVec S32x32768 1 := cmpf .olt main_v0 main_v1
  let main_c : IVec S_ 1 := constantI S_ 1 1#1
  let main_v3 : IVec S_ 1 := (fun x v => Host.reduce IntOp.andi x v reducesTo_S32x32768_S_d0_1 h_S_) main_v2 main_c
  main_v3
-- ==== Kernel.lean ====
abbrev S32x32768 : Shape := ⟨2, ![32, 32768]⟩
abbrev S32x32x32768 : Shape := ⟨3, ![32, 32, 32768]⟩
abbrev S32x2048 : Shape := ⟨2, ![32, 2048]⟩
abbrev S32x32x2048 : Shape := ⟨3, ![32, 32, 2048]⟩
abbrev S32x1x2048 : Shape := ⟨3, ![32, 1, 2048]⟩

abbrev nBuf : Space → Nat
  | .hbm => 2
  | .vmem => 4
  | .smem => 0
  | _ => 0

abbrev bufTy : (tb : Table) → Fin (tcTables nBuf tb) → BufTy
  | .hbm, ⟨0, _⟩ => ⟨S32x32768, .f32⟩
  | .hbm, ⟨1, _⟩ => ⟨S32x32x32768, .f32⟩
  | .local _ .vmem, ⟨0, _⟩ => ⟨S32x2048, .f32⟩
  | .local _ .vmem, ⟨1, _⟩ => ⟨S32x2048, .f32⟩
  | .local _ .vmem, ⟨2, _⟩ => ⟨S32x32x2048, .f32⟩
  | .local _ .vmem, ⟨3, _⟩ => ⟨S32x32x2048, .f32⟩
  | _, _ => ⟨S32x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S32x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x32x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S32x2048_S32x2048_0_0 : ∀ a, (![0, 0] : Fin 2 → Nat) a + S32x2048.size a ≤ S32x2048.size a
  h_S32x2048 : 0 < S32x2048.numel
  iota_S32x32x2048_d1_w32 : S32x32x2048.Iotas .tc 32 [1]
  shapeCasts_S32x2048_S32x1x2048 : S32x2048.ShapeCasts S32x1x2048
  broadcasts_S32x1x2048_S32x32x2048 : S32x1x2048.Broadcasts S32x32x2048
  natLt_1_32 : 1 < 32
  inb_S32x32x2048_S32x32x2048_0_0_0 : ∀ a, (![0, 0, 0] : Fin 3 → Nat) a + S32x32x2048.size a ≤ S32x32x2048.size a
  h_S32x32x2048 : 0 < S32x32x2048.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x2048.size a ≤ S32x32768.size a
  hwx0_0 : ∀ i : grid0.Coords, EltTy.bits .f32 = 32 ∨ (Rect.block (s := S32x32768) S32x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x32x2048.size a ≤ S32x32x32768.size a
  hwx0_1 : ∀ i : grid0.Coords, EltTy.bits .f32 = 32 ∨ (Rect.block (s := S32x32x32768) S32x32x2048.size (cc0_transform_1 i) (hinb0_1 i)).WholeWords (EltTy.packing .f32)

variable [Facts₀]

abbrev win0_0 : Pipeline.Window sig grid0 :=
  Pipeline.Window.ofSpec (Memref.whole main_arg0) S32x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S32x32x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x32768 : Shape := ⟨2, ![32, 32768]⟩
abbrev S_ : Shape := ⟨0, ![]⟩
abbrev S32 : Shape := ⟨1, ![32]⟩
abbrev S32x1x32768 : Shape := ⟨3, ![32, 1, 32768]⟩
abbrev S1x32x1 : Shape := ⟨3, ![1, 32, 1]⟩
abbrev S32x32x32768 : Shape := ⟨3, ![32, 32, 32768]⟩

abbrev nBuf : Space → Nat
  | .hbm => 40
  | .vmem => 0
  | .smem => 0
  | _ => 0

abbrev bufTy : (tb : Table) → Fin (tcTables nBuf tb) → BufTy
  | .hbm, ⟨0, _⟩ => ⟨S32x32768, .f32⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S32x32768, .f32⟩
  | .hbm, ⟨5, _⟩ => ⟨S32x32768, .f32⟩
  | .hbm, ⟨6, _⟩ => ⟨S_, .f32⟩
  | .hbm, ⟨7, _⟩ => ⟨S32x32768, .f32⟩
  | .hbm, ⟨8, _⟩ => ⟨S32x32768, .f32⟩
  | .hbm, ⟨9, _⟩ => ⟨S_, .f32⟩
  | .hbm, ⟨10, _⟩ => ⟨S32x32768, .f32⟩
  | .hbm, ⟨11, _⟩ => ⟨S32x32768, .f32⟩
  | .hbm, ⟨12, _⟩ => ⟨S_, .f32⟩
  | .hbm, ⟨13, _⟩ => ⟨S32x32768, .f32⟩
  | .hbm, ⟨14, _⟩ => ⟨S32x32768, .f32⟩
  | .hbm, ⟨15, _⟩ => ⟨S_, .f32⟩
  | .hbm, ⟨16, _⟩ => ⟨S32x32768, .f32⟩
  | .hbm, ⟨17, _⟩ => ⟨S32x32768, .f32⟩
  | .hbm, ⟨18, _⟩ => ⟨S32x32768, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S32x32768, .i32⟩
  | .hbm, ⟨23, _⟩ => ⟨S32x32768, .i32⟩
  | .hbm, ⟨24, _⟩ => ⟨S_, .i32⟩
  | .hbm, ⟨25, _⟩ => ⟨S32x32768, .i32⟩
  | .hbm, ⟨26, _⟩ => ⟨S32x32768, .i32⟩
  | .hbm, ⟨27, _⟩ => ⟨S_, .f32⟩
  | .hbm, ⟨28, _⟩ => ⟨S32x32768, .f32⟩
  | .hbm, ⟨29, _⟩ => ⟨S32x32768, .i1⟩
  | .hbm, ⟨30, _⟩ => ⟨S32, .i32⟩
  | .hbm, ⟨31, _⟩ => ⟨S32x1x32768, .i32⟩
  | .hbm, ⟨32, _⟩ => ⟨S1x32x1, .i32⟩
  | .hbm, ⟨33, _⟩ => ⟨S32x32x32768, .i32⟩
  | .hbm, ⟨34, _⟩ => ⟨S32x32x32768, .i32⟩
  | .hbm, ⟨35, _⟩ => ⟨S32x32x32768, .i1⟩
  | .hbm, ⟨36, _⟩ => ⟨S32x1x32768, .i1⟩
  | .hbm, ⟨37, _⟩ => ⟨S32x32x32768, .i1⟩
  | .hbm, ⟨38, _⟩ => ⟨S32x32x32768, .i1⟩
  | .hbm, ⟨39, _⟩ => ⟨S32x32x32768, .f32⟩
  | _, _ => ⟨S32x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_v0 : Ref sig .tc := ⟨.hbm, 8, rfl⟩
abbrev main_cst_1 : Ref sig .tc := ⟨.hbm, 9, rfl⟩
abbrev main_v1 : Ref sig .tc := ⟨.hbm, 10, rfl⟩
abbrev main_v2 : Ref sig .tc := ⟨.hbm, 11, rfl⟩
abbrev main_cst_2 : Ref sig .tc := ⟨.hbm, 12, rfl⟩
abbrev main_v3 : Ref sig .tc := ⟨.hbm, 13, rfl⟩
abbrev main_v4 : Ref sig .tc := ⟨.hbm, 14, rfl⟩
abbrev main_cst_3 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c : Ref sig .tc := ⟨.hbm, 19, rfl⟩
abbrev main_c_4 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_v8 : Ref sig .tc := ⟨.hbm, 26, rfl⟩
abbrev main_cst_5 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩

abbrev nD : Nat := 1
abbrev τ : Topo := Topo.v7x

variable {F : FTy → Type} [FloatOps F]

class Facts₀ : Prop where
  bcast_S_S32x32768 : S_.BroadcastsInDim S32x32768 (![] : Fin 0 → Fin S32x32768.rank)
  bcast_S32x32768_S32x1x32768_0_2 : S32x32768.BroadcastsInDim S32x1x32768 (![0, 2] : Fin 2 → Fin S32x1x32768.rank)
  bcast_S32_S1x32x1_1 : S32.BroadcastsInDim S1x32x1 (![1] : Fin 1 → Fin S1x32x1.rank)
  bcast_S32x1x32768_S32x32x32768_0_1_2 : S32x1x32768.BroadcastsInDim S32x32x32768 (![0, 1, 2] : Fin 3 → Fin S32x32x32768.rank)
  bcast_S1x32x1_S32x32x32768_0_1_2 : S1x32x1.BroadcastsInDim S32x32x32768 (![0, 1, 2] : Fin 3 → Fin S32x32x32768.rank)

variable [Facts₀]

class Facts : Prop extends Facts₀ where

variable [Facts]
-- ==== Proof.SpikeSpec.lean ====
/-
  Temporal one-hot coding, entry by entry.

  For an input value `v`, let `u = min 1 (max 0 v)` be its clamp to the unit interval. The value's SPIKE TIME is the
  word `min 31 (max 0 (trunc (0 + (1 − u) · 31)))` — a larger value spikes earlier —, and the value is ACTIVE when
  `u > 0`. The coded array has a time axis of 32 steps: its entry at time `t` is `1` when the value is active and its
  spike time is `t`, and `0` otherwise.

  Two spellings of that entry are set side by side here:
  * `spikeAt`: the conjunction `(time = t) ∧ active`, read as an unsigned one-bit word;
  * `spikeAtSentinel`: the spike time of an inactive value is first replaced by the word `−1` (all ones), the comparison
    with `t` is then made alone, and its one bit is widened to 32 bits and read as a signed integer.
  They agree for every time step `t < 32`: the all-ones word is no such `t`, so an inactive value matches no step, and
  a one-bit word widened by zeros is `0` or `1` whether it is then read signed or unsigned (`sentinel_eq`). Nothing is
  asked of `v`: it may be any extended real.
-/
import Idealize.ShloMosaic.PureOps.Ideal
import Idealize.ShloMosaic.Lib.ValueIdx

noncomputable section

namespace Cert.Spike

open Idealize.ShloMosaic Idealize.ShloMosaic.ValueIdx

variable {F : FTy → Type} [FloatOps F]

/-- The clamp of a value to `[0, 1]`: `min 1 (max 0 v)`. -/
def unitClamp (v : F .f32) : F .f32 :=
  FloatOps.minimumf (FloatOps.ofBits .f32 0x3F800000#32) (FloatOps.maximumf (FloatOps.ofBits .f32 0x00000000#32) v)

/-- The spike time of a value: `0 + (1 − u) · 31` truncated to an integer and clamped to `[0, 31]`. -/
def spikeTime (v : F .f32) : BitVec 32 :=
  IntOp.minsi 31#32 (IntOp.maxsi 0#32 (FloatOps.fptosi 32
    (FloatOps.addf (FloatOps.ofBits .f32 0x00000000#32)
      (FloatOps.mulf (FloatOps.subf (FloatOps.ofBits .f32 0x3F800000#32) (unitClamp v))
        (FloatOps.ofBits .f32 0x41F80000#32)))))

/-- Whether a value is active: its clamp is positive. -/
def active (v : F .f32) : BitVec 1 :=
  FloatOps.cmpf .ogt (unitClamp v) (FloatOps.ofBits .f32 0x00000000#32)

/-- The coded entry at time `t`, as the conjunction of "the spike time is `t`" and "the value is active". -/
def spikeAt (v : F .f32) (t : ℕ) : F .f32 :=
  FloatOps.uitofp .f32 (IntOp.andi (IntOp.cmpi .eq (spikeTime v) (BitVec.ofNat 32 t)) (active v))

/-- The coded entry at time `t`, with the spike time of an inactive value replaced by the word `−1` beforehand. -/
def spikeAtSentinel (v : F .f32) (t : ℕ) : F .f32 :=
  FloatOps.sitofp .f32
    ((IntOp.cmpi .eq (Scalar.select (active v) (spikeTime v) 4294967295#32) (BitVec.ofNat 32 t)).setWidth 32)

/-- The coded array of a `[32, 32768]` input: entry `(b, t, f)` codes input `(b, f)` at time `t`. -/
def coded (x : (⟨2, ![32, 32768]⟩ : Shape).Idx → F .f32) : (⟨3, ![32, 32, 32768]⟩ : Shape).Idx → F .f32 :=
  fun i => spikeAt (x (ix2 (i 0) (i 2))) (i 1).val

/-- The all-ones word is not a time step. -/
theorem allOnes_ne_step (t : ℕ) (ht : t < 32) : (4294967295#32 == BitVec.ofNat 32 t) = false :=
  (by decide : ∀ t : Fin 32, (4294967295#32 == BitVec.ofNat 32 t.val) = false) ⟨t, ht⟩

/-- A one-bit word widened by zeros reads the same signed as the bit reads unsigned. -/
theorem widened_bit (e : BitVec 1) : (e.setWidth 32).toInt = (e.toNat : ℤ) :=
  (by decide : ∀ e : BitVec 1, (e.setWidth 32).toInt = (e.toNat : ℤ)) e

/-- On the extended reals the two spellings of a coded entry agree at every time step below 32. -/
theorem sentinel_eq (v : Ideal .f32) (t : ℕ) (ht : t < 32) : spikeAtSentinel (F := Ideal) v t = spikeAt (F := Ideal) v t := by
  unfold spikeAtSentinel spikeAt
  show (((((IntOp.cmpi .eq (Scalar.select (active v) (spikeTime v) 4294967295#32) (BitVec.ofNat 32 t)).setWidth 32).toInt : ℤ) : ℝ) : EReal)
    = ((((IntOp.andi (IntOp.cmpi .eq (spikeTime v) (BitVec.ofNat 32 t)) (active v)).toNat : ℕ) : ℝ) : EReal)
  rw [widened_bit]
  rcases (by decide : ∀ b : BitVec 1, b = 1#1 ∨ b = 0#1) (active (F := Ideal) v) with hb | hb
  · rw [hb, select_one]
    have hand : ∀ e : BitVec 1, IntOp.andi e 1#1 = e := by decide
    rw [hand]
    push_cast
    rfl
  · rw [hb, select_zero]
    have hand : ∀ e : BitVec 1, IntOp.andi e 0#1 = 0#1 := by decide
    rw [hand]
    have hne : IntOp.cmpi .eq 4294967295#32 (BitVec.ofNat 32 t) = 0#1 := by
      show BitVec.ofBool (4294967295#32 == BitVec.ofNat 32 t) = 0#1
      rw [allOnes_ne_step t ht]
      rfl
    rw [hne]
    rfl

end Cert.Spike

end
-- ==== Proof.RefCoded.lean ====
/-
  The reference program computes the coded array.

  Read one operation at a time, the reference's result at `(b, t, f)` is the one-bit conjunction of two comparisons,
  read as an unsigned integer: the spike time of input `(b, f)` — the clamped value, subtracted from one, scaled by 31,
  added to zero, truncated, clamped to `[0, 31]` — against the counter `t` spread over the time axis, and the clamped
  value against zero. The broadcasts that spread the `[32, 32768]` arrays along the time axis read their operand at
  `(b, f)`, and the one that spreads the counter reads it at `t`. That is `Cert.Spike.coded` of the input, entry by
  entry, at any reading of the floats.
-/
import proofs.«107952_j1297080123575_2_alg».proof.Proof.Gen.ReferenceIdeal.Read
import proofs.«107952_j1297080123575_2_alg».proof.Proof.SpikeSpec

noncomputable section

namespace Cert.ReferenceIdeal.RefCoded

open Cert.ReferenceIdeal Cert.ReferenceIdeal.Read Idealize.ShloMosaic Idealize.ShloMosaic.ValueIdx

variable {F : FTy → Type} [FloatOps F]

/-- The two broadcasts of an input-shaped array along the time axis read it, at `(b, t, f)`, at `(b, f)`. -/
theorem spread_idx (i : S32x32x32768.Idx) : idx_main_v12 (idx_main_v14 i) = ix2 (i 0) (i 2) :=
  funext fun a => Fin.ext (by match a with | ⟨0, _⟩ => rfl | ⟨1, _⟩ => rfl)

/-- The same for the activity mask's broadcasts. -/
theorem spread_idx_mask (i : S32x32x32768.Idx) : idx_main_v17 (idx_main_v18 i) = ix2 (i 0) (i 2) :=
  funext fun a => Fin.ext (by match a with | ⟨0, _⟩ => rfl | ⟨1, _⟩ => rfl)

/-- The reference's last stage is the coded array of its argument. -/
theorem val_eq_coded (x0 : (⟨S32x32768, .f32⟩ : BufTy).Contents (Elt F)) :
    val_main_v20 (F := F) x0 = Cert.Spike.coded (F := F) x0 := by
  funext i
  simp only [val_main_v20_apply, val_main_v19_apply, val_main_v16_apply, val_main_v14_apply, val_main_v12_apply,
    val_main_v8_apply, val_main_call1_v4_apply, val_main_call1_v3_apply, val_main_c_4_apply, val_main_call1_v2_apply,
    val_main_call1_v1_apply, val_main_call1_v0_apply, val_main_c_apply, val_main_v7_apply, val_main_v6_apply,
    val_main_v5_apply, val_main_cst_3_apply, val_main_v4_apply, val_main_v2_apply, val_main_v1_apply,
    val_main_cst_1_apply, val_main_v0_apply, val_main_call0_v4_apply, val_main_call0_v3_apply, val_main_cst_0_apply,
    val_main_call0_v2_apply, val_main_call0_v1_apply, val_main_call0_v0_apply, val_main_cst_apply, val_main_v3_apply,
    val_main_cst_2_apply, val_main_v15_apply, val_main_v13_apply, val_main_v11_apply, val_main_v18_apply,
    val_main_v17_apply, val_main_v10_apply, val_main_v9_apply, val_main_cst_5_apply, spread_idx, spread_idx_mask]
  rfl

end Cert.ReferenceIdeal.RefCoded

end
-- ==== Proof.LibMiddleAxis.lean ====
/-
  A unit axis in the MIDDLE of a rank-3 shape, read at an index given by coordinates.

  Three layout facts about an array `[a, b]` that is spread along a new middle axis to `[a, c, b]`:
  * the shape cast `[a, b] → [a, 1, b]` read at `(i, u, j)` is the operand at `(i, j)`: both indices have the same
    row-major position, because the unit coordinate `u` is zero;
  * the broadcast `[a, 1, b] → [a, c, b]` read at `(i, k, j)` is the operand at `(i, 0, j)`: the middle coordinate is
    forgotten, the outer two are kept;
  * the counting vector (`iota`) along the middle axis of `[a, c, b]` read at `(i, k, j)` is the word `k`.
  Together: `x[:, None, :]` compared with a counter along the new axis reads, at `(i, k, j)`, `x (i, j)` against `k`.
-/
import Idealize.ShloMosaic.Lib.Pipeline.Value
import Idealize.ShloMosaic.Lib.ValueIdx

namespace Cert.Lib.MiddleAxis

open Idealize.ShloMosaic Idealize.ShloMosaic.ValueIdx

variable {α : Type}

/-- An `[a, b]` array cast to `[a, 1, b]` reads, at `(i, u, j)`, the operand at `(i, j)`: the row-major positions
    `i · b + j` and `(i · 1 + u) · b + j` agree since `u = 0`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, b]` array broadcast to `[a, c, b]` reads, at `(i, k, j)`, the operand at `(i, 0, j)`. -/
theorem broadcastTo_a1b_acb_apply {a b c : ℕ} (v : (⟨3, ![a, 1, b]⟩ : Shape).Idx → α)
    (h : (⟨3, ![a, 1, b]⟩ : Shape).Broadcasts ⟨3, ![a, c, b]⟩) (i : Fin a) (k : Fin c) (j : Fin b) :
    broadcastTo ⟨3, ![a, c, b]⟩ v h (ix3 i k j) = v (ix3 i (0 : Fin 1) j) := by
  refine broadcastTo_apply v h (ix3 i k j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if b = 1 then 0 else j.val
    split
    · have := j.isLt; omega
    · rfl

/-- The counting vector along the middle axis of `[a, c, b]` reads, at `(i, k, j)`, the word `k`. -/
theorem iota_axis1_apply {a b c w : ℕ} (κ : Kind) (h : (⟨3, ![a, c, b]⟩ : Shape).Iotas κ w [1])
    (i : Fin a) (k : Fin c) (j : Fin b) :
    iota κ ⟨3, ![a, c, b]⟩ w [1] h (ix3 i k j) = BitVec.ofNat w k.val := by
  show BitVec.ofNat w (0 * c + k.val) = BitVec.ofNat w k.val
  rw [Nat.zero_mul, Nat.zero_add]

end Cert.Lib.MiddleAxis
-- ==== Proof.KernelEntry.lean ====
/-
  What the kernel body stores, entry by entry.

  The body loads a `[32, 2048]` block of the input and stores a `[32, 32, 2048]` block of the result. Per loaded value
  it computes the clamp, the spike time and the activity bit, and replaces the spike time of an inactive value by the
  word `−1`. That `[32, 2048]` array of words is given a unit middle axis and spread along the 32 time steps, compared
  with the counter along that axis, and the resulting bit is widened and read as a signed integer. So the stored entry
  at `(b, t, f)` depends on the loaded value at `(b, f)` and on `t` alone: it is the sentinel spelling of the coded entry,
  at any reading of the floats.
-/
import proofs.«107952_j1297080123575_2_alg».proof.Proof.Gen.KernelIdeal.Skeleton
import proofs.«107952_j1297080123575_2_alg».proof.Proof.SpikeSpec
import proofs.«107952_j1297080123575_2_alg».proof.Proof.LibMiddleAxis

noncomputable section

namespace Cert.KernelIdeal.Entry

open Cert.KernelIdeal Cert.KernelIdeal.Gen Idealize.ShloMosaic Idealize.ShloMosaic.ValueIdx Cert.Lib.MiddleAxis

variable {F : FTy → Type} [FloatOps F]

/-- A `[32, 2048]` array of words given a unit middle axis and spread over 32 steps reads, at `(b, t, f)`, its `(b, f)`. -/
theorem spread_apply (w : IVec S32x2048 32) (b : Fin 32) (t : Fin 32) (f : Fin 2048) :
    broadcastTo S32x32x2048 (shapeCast S32x1x2048 w shapeCasts_S32x2048_S32x1x2048) broadcasts_S32x1x2048_S32x32x2048 (ix3 b t f)
      = w (ix2 b f) := by
  rw [broadcastTo_a1b_acb_apply, shapeCast_ab_a1b_apply]

/-- The counter along the time axis reads, at `(b, t, f)`, the word `t`. -/
theorem counter_apply (b : Fin 32) (t : Fin 32) (f : Fin 2048) :
    iota .tc S32x32x2048 32 [1] iota_S32x32x2048_d1_w32 (ix3 b t f) = BitVec.ofNat 32 t.val :=
  iota_axis1_apply _ _ b t f

/-- The stored entry at `(b, t, f)` is the sentinel spelling of the coded entry of the loaded `(b, f)` at time `t`. -/
theorem pay_apply (x0 : Vec F S32x2048 .f32) (b : Fin 32) (t : Fin 32) (f : Fin 2048) :
    k0_pay1 x0 (ix3 b t f) = Cert.Spike.spikeAtSentinel (x0 (ix2 b f)) t.val := by
  unfold k0_pay1
  show FloatOps.sitofp .f32 ((IntOp.cmpi .eq
      (broadcastTo S32x32x2048 (shapeCast S32x1x2048 _ shapeCasts_S32x2048_S32x1x2048) broadcasts_S32x1x2048_S32x32x2048 (ix3 b t f))
      (iota .tc S32x32x2048 32 [1] iota_S32x32x2048_d1_w32 (ix3 b t f))).setWidth 32) = _
  rw [spread_apply, counter_apply]
  rfl

end Cert.KernelIdeal.Entry

end
-- ==== Proof.KernelCoded.lean ====
/-
  The kernel's result array is the coded array of its argument.

  The grid has 16 points. Point `t` loads columns `2048 t … 2048 t + 2047` of the `[32, 32768]` input (all 32 rows) and
  writes back the block of the `[32, 32, 32768]` result with the same columns (all rows, all time steps). The stored entry
  at `(b, s, f)` of the block is the sentinel spelling of the coded entry of the loaded `(b, f)` at time `s`
  (`Entry.pay_apply`), which on the extended reals is the coded entry itself (`Spike.sentinel_eq`, `s < 32`); and the
  loaded `(b, f)` is the input at `(b, 2048 t + f)`. So point `t` writes back block `t` of the coded array of the input
  (`flushed_eq`). Every column lies in the block of the point `column / 2048` (`cover`), so after the run the whole result
  array is the coded array (`final`, `run`).
-/
import proofs.«107952_j1297080123575_2_alg».proof.Proof.Gen.KernelIdeal.Value
import proofs.«107952_j1297080123575_2_alg».proof.Proof.KernelEntry
import Idealize.ShloMosaic.Lib.Pipeline.Value

noncomputable section

namespace Cert.KernelIdeal.Coded

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The block indices at point `t`: the input window is at block `(0, t)`, the output window at block `(0, 0, t)`. -/
theorem idx_facts : ∀ t : Fin cfg0.N, win0_0.index t (0 : Fin 2) = 0 ∧ win0_0.index t (1 : Fin 2) = t.val
    ∧ win0_1.index t (0 : Fin 3) = 0 ∧ win0_1.index t (1 : Fin 3) = 0 ∧ win0_1.index t (2 : Fin 3) = t.val :=
  (by decide +kernel : ∀ t : Fin grid0.N, _)

/-- The coded array of the argument, at the result array's type. -/
abbrev result (c : Dev nD) : Buf (Elt Ideal) ((c : Thread nD τ).loc main_v0) :=
  Cert.Spike.coded (F := Ideal) (m ((c : Thread nD τ).loc main_arg0))

/-- A stored entry is the coded entry of an array `X` at `i`, when `i` is at the same time step and the loaded value
    is `X` at `i`'s row and column. -/
theorem block_entry (x0 : Vec Ideal S32x2048 .f32) (X : S32x32768.Idx → Ideal .f32) (b s : Fin 32) (f : Fin 2048)
    (i : S32x32x32768.Idx) (h1 : (i 1).val = s.val) (hx : x0 (ix2 b f) = X (ix2 (i 0) (i 2))) :
    k0_pay1 x0 (ix3 b s f) = Cert.Spike.coded (F := Ideal) X i := by
  rw [Entry.pay_apply, Cert.Spike.sentinel_eq _ _ s.isLt, hx]
  show _ = Cert.Spike.spikeAt (X (ix2 (i 0) (i 2))) (i 1).val
  rw [h1]

/-- WHAT POINT `t` WRITES BACK is block `t` of the coded array of the argument. -/
theorem flushed_eq (c : Dev nD) (t : Fin cfg0.N) :
    (dats m 0 c).flushed 1 t = ((cfg0.win 1).blk t).view.read (Elt Ideal) (result m c) := by
  rw [Cert.KernelIdeal.Value.flushed1]
  unfold out0_1
  rw [View.canon_unit_zero hz3]
  simp only [View.ld_unit_zero (S := S32x2048) hz2]
  obtain ⟨e0, e1, e2, e3, e4⟩ := idx_facts t
  have key : ∀ y : S32x32x2048.Idx,
      k0_pay1 (iblk m c 0 t) y = result m c (((cfg0.win 1).blk t).view.emb y) := by
    intro y
    obtain ⟨b, s, f, rfl⟩ : ∃ (b s : Fin 32) (f : Fin 2048), y = ix3 b s f := ⟨y 0, y 1, y 2, eq_ix3 y⟩
    refine block_entry _ _ b s f _ ?_ ?_
    · show win0_1.index t (1 : Fin 3) * 32 + 1 * s.val = s.val
      omega
    · show V m c main_arg0 (((cfg0.win 0).blk t).view.emb (ix2 b f)) = V m c main_arg0 _
      refine congrArg _ (funext fun a => Fin.ext ?_)
      match a with
      | ⟨0, _⟩ =>
        show win0_0.index t (0 : Fin 2) * 32 + 1 * b.val = win0_1.index t (0 : Fin 3) * 32 + 1 * b.val
        omega
      | ⟨1, _⟩ =>
        show win0_0.index t (1 : Fin 2) * 2048 + 1 * f.val = win0_1.index t (2 : Fin 3) * 2048 + 1 * f.val
        omega
  funext j
  exact key j

/-- An index of the array is in point `t`'s block iff each coordinate is in the block's range on its axis. -/
theorem mem_blk (t : Fin cfg0.N) (i : S32x32x32768.Idx) :
    i ∈ ((cfg0.win 1).blk t).view.set ↔ ∀ a : Fin 3, win0_1.index t a * S32x32x2048.size a ≤ (i a).val
      ∧ (i a).val < win0_1.index t a * S32x32x2048.size a + S32x32x2048.size a := by
  show i ∈ ((View.whole main_v0).slice (win0_1.rect t)).set ↔ _
  rw [View.set_slice_whole, Rect.mem_set_unit]
  exact Iff.rfl

/-- Every index of the result array is in the block of the point `column / 2048`. -/
theorem cover (i : S32x32x32768.Idx) :
    ∃ t : Fin cfg0.N, (cfg0.win 1).flush t = true ∧ i ∈ ((cfg0.win 1).blk t).view.set := by
  have h0 : (i 0).val < 32 := (i 0).isLt
  have h1 : (i 1).val < 32 := (i 1).isLt
  have h2 : (i 2).val < 32768 := (i 2).isLt
  obtain ⟨t, ht⟩ : ∃ t : Fin cfg0.N, t.val = (i 2).val / 2048 :=
    ⟨⟨(i 2).val / 2048, by rw [show cfg0.N = 16 from N_0]; omega⟩, rfl⟩
  obtain ⟨-, -, e2, e3, e4⟩ := idx_facts t
  refine ⟨t, flush0_1 t, ?_⟩
  rw [mem_blk]
  intro a
  match a with
  | ⟨0, _⟩ =>
    show win0_1.index t (0 : Fin 3) * 32 ≤ (i 0).val ∧ (i 0).val < win0_1.index t (0 : Fin 3) * 32 + 32
    omega
  | ⟨1, _⟩ =>
    show win0_1.index t (1 : Fin 3) * 32 ≤ (i 1).val ∧ (i 1).val < win0_1.index t (1 : Fin 3) * 32 + 32
    omega
  | ⟨2, _⟩ =>
    show win0_1.index t (2 : Fin 3) * 2048 ≤ (i 2).val ∧ (i 2).val < win0_1.index t (2 : Fin 3) * 2048 + 2048
    omega

/-- THE ARRAY after the run is the coded array of the argument. -/
theorem final (c : Dev nD) : (dats m 0 c).arrAt 1 cfg0.N = result m c :=
  (dats m 0 c).arrAt_eq_of_cover 1 (result m c) (fun t _ => flushed_eq m c t) cover

/-- The run, read: the result array at the coded array of the argument, the argument unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0) :=
  (θ_run defs _ _).mono (fun _ h c => ⟨(h c).1.trans (final m c), (h c).2⟩)
    (Cert.KernelIdeal.Value.run_blocks m ρ)

end Cert.KernelIdeal.Coded

end
-- ==== Proof.lean ====
/-
  Temporal one-hot coding of a `[32, 32768]` array along a new time axis of 32 steps: the kernel against the reference.

  Both programs clamp each input value to `[0, 1]`, take its spike time `min 31 (max 0 (trunc (0 + (1 − u) · 31)))` and
  its activity `u > 0`, and write, at `(b, t, f)`, `1` when input `(b, f)` is active and spikes at `t`, else `0`.
  The reference forms the conjunction of the two bits and converts it. The kernel, 2048 columns per grid point, replaces
  the spike time of an inactive value by `−1`, compares with the time counter alone, and converts the bit through a
  32-bit word. The two agree because `−1` is none of the 32 time steps and a zero-extended bit reads the same signed and
  unsigned (`Cert.Spike.sentinel_eq`); the float operations before the truncation are the same on both sides, so no
  hypothesis on the input is used: the equality holds at every extended real.

  * `SpikeSpec`   — the coded entry in its two spellings, and their agreement;
  * `LibMiddleAxis` — a unit middle axis added, spread, and counted along, read at an index;
  * `RefCoded`    — the reference's result is the coded array;
  * `KernelEntry` — what the kernel body stores, entry by entry;
  * `KernelCoded` — each grid point writes its block of the coded array, and the blocks cover the result.
  The three frames are the programs' runs with the result forgotten; the idealization rewrote nothing.
-/
import proofs.«107952_j1297080123575_2_alg».proof.Defs
import proofs.«107952_j1297080123575_2_alg».proof.Proof.Gen.Kernel
import proofs.«107952_j1297080123575_2_alg».proof.Proof.Gen.Kernel.Skeleton
import proofs.«107952_j1297080123575_2_alg».proof.Proof.Gen.Kernel.Launch
import proofs.«107952_j1297080123575_2_alg».proof.Proof.Gen.Kernel.Points
import proofs.«107952_j1297080123575_2_alg».proof.Proof.Gen.Kernel.Frame
import proofs.«107952_j1297080123575_2_alg».proof.Proof.Gen.KernelIdeal
import proofs.«107952_j1297080123575_2_alg».proof.Proof.Gen.KernelIdeal.Skeleton
import proofs.«107952_j1297080123575_2_alg».proof.Proof.Gen.KernelIdeal.Launch
import proofs.«107952_j1297080123575_2_alg».proof.Proof.Gen.KernelIdeal.Points
import proofs.«107952_j1297080123575_2_alg».proof.Proof.Gen.KernelIdeal.Frame
import proofs.«107952_j1297080123575_2_alg».proof.Proof.Gen.ReferenceIdeal
import proofs.«107952_j1297080123575_2_alg».proof.Proof.Gen.Pre_finite_inputs
import proofs.«107952_j1297080123575_2_alg».proof.Proof.Gen.KernelIdeal.Value
import proofs.«107952_j1297080123575_2_alg».proof.Proof.Gen.ReferenceIdeal.Run
import proofs.«107952_j1297080123575_2_alg».proof.Proof.Gen.ReferenceIdeal.Read
import proofs.«107952_j1297080123575_2_alg».proof.Proof.RefCoded
import proofs.«107952_j1297080123575_2_alg».proof.Proof.KernelCoded
import Idealize.ShloMosaic.Adequacy
import Idealize.ShloMosaic.Init

noncomputable section

namespace Cert.Proof

open Idealize.ShloMosaic Idealize.SL.Sem

/-- The kernel as printed runs, and leaves its argument as it was. -/
theorem frame_kernel [Cert.Kernel.Facts] [Cert.Pre_finite_inputs.Facts] : Cert.frame_Kernel :=
  fun m ρ _ => Cert.Kernel.Gen.frame m ρ

/-- So does its reading on the extended reals. -/
theorem frame_kernelIdeal [Cert.KernelIdeal.Facts] [Cert.Pre_finite_inputs.Facts] : Cert.frame_KernelIdeal :=
  fun m ρ _ => Cert.KernelIdeal.Gen.frame m ρ

/-- The reference's frame is its run with the result forgotten. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- Both programs end with the coded array of the (shared) argument. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Coded.result m c, Cert.KernelIdeal.Coded.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.ReferenceIdeal.RefCoded.val_eq_coded, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
